-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x10x10x2x2x32 : Shape := ⟨7, ![32, 64, 10, 10, 2, 2, 32]⟩
abbrev S10x10x2x32 : Shape := ⟨4, ![10, 10, 2, 32]⟩
abbrev S_ : Shape := ⟨0, ![]⟩

class Facts : Prop where
  bcast_S_S32x64x10x10x2x2x32 : S_.BroadcastsInDim S32x64x10x10x2x2x32 (![] : Fin 0 → Fin S32x64x10x10x2x2x32.rank)
  reducesTo_S32x64x10x10x2x2x32_S_d0_1_2_3_4_5_6 : S32x64x10x10x2x2x32.ReducesTo [0, 1, 2, 3, 4, 5, 6] S_
  h_S_ : 0 < S_.numel
  bcast_S_S10x10x2x32 : S_.BroadcastsInDim S10x10x2x32 (![] : Fin 0 → Fin S10x10x2x32.rank)
  reducesTo_S10x10x2x32_S_d0_1_2_3 : S10x10x2x32.ReducesTo [0, 1, 2, 3] S_

variable [Facts]

def fn_part1 {F : FTy → Type} [FloatOps F] (main_v13 : IVec S_ 1) (main_v16 : IVec S10x10x2x32 1) : IVec S_ 1 :=
  let main_c_5 : IVec S_ 1 := constantI S_ 1 1#1
  let main_v17 : IVec S_ 1 := (fun x v => Host.reduce IntOp.andi x v reducesTo_S10x10x2x32_S_d0_1_2_3 h_S_) main_v16 main_c_5
  let main_v18 : IVec S_ 1 := andi main_v13 main_v17
  main_v18

def fn {F : FTy → Type} [FloatOps F] (main_arg0 : FVec F S32x64x10x10x2x2x32 .f32) (main_arg1 : FVec F S32x64x10x10x2x2x32 .f32) (main_arg2 : FVec F S10x10x2x32 .f32) (main_arg3 : FVec F S10x10x2x32 .f32) : IVec S_ 1 :=
  let main_v0 : FVec F S32x64x10x10x2x2x32 .f32 := Host.absf main_arg0
  let main_cst : FVec F S_ .f32 := constant S_ .f32 0x7F800000#32
  let main_v1 : FVec F S32x64x10x10x2x2x32 .f32 := broadcastInDim S32x64x10x10x2x2x32 ![] bcast_S_S32x64x10x10x2x2x32 main_cst
  let main_v2 : IVec S32x64x10x10x2x2x32 1 := cmpf .olt main_v0 main_v1
  let main_c : IVec S_ 1 := constantI S_ 1 1#1
  let main_v3 : IVec S_ 1 := (fun x v => Host.reduce IntOp.andi x v reducesTo_S32x64x10x10x2x2x32_S_d0_1_2_3_4_5_6 h_S_) main_v2 main_c
  let main_v4 : FVec F S32x64x10x10x2x2x32 .f32 := Host.absf main_arg1
  let main_cst_0 : FVec F S_ .f32 := constant S_ .f32 0x7F800000#32
  let main_v5 : FVec F S32x64x10x10x2x2x32 .f32 := broadcastInDim S32x64x10x10x2x2x32 ![] bcast_S_S32x64x10x10x2x2x32 main_cst_0
  let main_v6 : IVec S32x64x10x10x2x2x32 1 := cmpf .olt main_v4 main_v5
  let main_c_1 : IVec S_ 1 := constantI S_ 1 1#1
  let main_v7 : IVec S_ 1 := (fun x v => Host.reduce IntOp.andi x v reducesTo_S32x64x10x10x2x2x32_S_d0_1_2_3_4_5_6 h_S_) main_v6 main_c_1
  let main_v8 : IVec S_ 1 := andi main_v3 main_v7
  let main_v9 : FVec F S10x10x2x32 .f32 := Host.absf main_arg2
  let main_cst_2 : FVec F S_ .f32 := constant S_ .f32 0x7F800000#32
  let main_v10 : FVec F S10x10x2x32 .f32 := broadcastInDim S10x10x2x32 ![] bcast_S_S10x10x2x32 main_cst_2
  let main_v11 : IVec S10x10x2x32 1 := cmpf .olt main_v9 main_v10
  let main_c_3 : IVec S_ 1 := constantI S_ 1 1#1
  let main_v12 : IVec S_ 1 := (fun x v => Host.reduce IntOp.andi x v reducesTo_S10x10x2x32_S_d0_1_2_3 h_S_) main_v11 main_c_3
  let main_v13 : IVec S_ 1 := andi main_v8 main_v12
  let main_v14 : FVec F S10x10x2x32 .f32 := Host.absf main_arg3
  let main_cst_4 : FVec F S_ .f32 := constant S_ .f32 0x7F800000#32
  let main_v15 : FVec F S10x10x2x32 .f32 := broadcastInDim S10x10x2x32 ![] bcast_S_S10x10x2x32 main_cst_4
  let main_v16 : IVec S10x10x2x32 1 := cmpf .olt main_v14 main_v15
  fn_part1 (F := F) main_v13 main_v16
-- ==== Kernel.lean ====
abbrev S32x64x10x10x2x2x32 : Shape := ⟨7, ![32, 64, 10, 10, 2, 2, 32]⟩
abbrev S10x10x2x32 : Shape := ⟨4, ![10, 10, 2, 32]⟩
abbrev S32x64x12800 : Shape := ⟨3, ![32, 64, 12800]⟩
abbrev S4x8x128 : Shape := ⟨3, ![4, 8, 128]⟩
abbrev S8x16x12800 : Shape := ⟨3, ![8, 16, 12800]⟩
abbrev S1x8x128 : Shape := ⟨3, ![1, 8, 128]⟩
abbrev S1x16x1 : Shape := ⟨3, ![1, 16, 1]⟩
abbrev S8x16 : Shape := ⟨2, ![8, 16]⟩
abbrev S8x16x1 : Shape := ⟨3, ![8, 16, 1]⟩
abbrev S8x1 : Shape := ⟨2, ![8, 1]⟩
abbrev S8x1x1 : Shape := ⟨3, ![8, 1, 1]⟩
abbrev S1x1 : Shape := ⟨2, ![1, 1]⟩
abbrev S1x1x1 : Shape := ⟨3, ![1, 1, 1]⟩
abbrev S_ : Shape := ⟨0, ![]⟩

abbrev nBuf : Space → Nat
  | .hbm => 19
  | .vmem => 6
  | .smem => 0
  | _ => 0

abbrev bufTy : (tb : Table) → Fin (tcTables nBuf tb) → BufTy
  | .hbm, ⟨0, _⟩ => ⟨S32x64x10x10x2x2x32, .f32⟩
  | .hbm, ⟨1, _⟩ => ⟨S32x64x10x10x2x2x32, .f32⟩
  | .hbm, ⟨2, _⟩ => ⟨S10x10x2x32, .f32⟩
  | .hbm, ⟨3, _⟩ => ⟨S10x10x2x32, .f32⟩
  | .hbm, ⟨4, _⟩ => ⟨S32x64x12800, .f32⟩
  | .hbm, ⟨5, _⟩ => ⟨S32x64x12800, .f32⟩
  | .hbm, ⟨6, _⟩ => ⟨S4x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x16x12800, .f32⟩
  | .local _ .vmem, ⟨1, _⟩ => ⟨S8x16x12800, .f32⟩
  | .local _ .vmem, ⟨2, _⟩ => ⟨S8x16x12800, .f32⟩
  | .local _ .vmem, ⟨3, _⟩ => ⟨S8x16x12800, .f32⟩
  | .local _ .vmem, ⟨4, _⟩ => ⟨S1x8x128, .f32⟩
  | .local _ .vmem, ⟨5, _⟩ => ⟨S1x8x128, .f32⟩
  | _, _ => ⟨S32x64x10x10x2x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_9 : BitVec 32 := 0#32
  let v32 : BitVec 1 := Scalar.cmpi .eq arg1 c0_i32_9
  let v33 : BitVec 32 := Scalar.extui v32
  let c0_i32_10 : BitVec 32 := 0#32
  let v34 : BitVec 1 := Scalar.cmpi .ne v33 c0_i32_10
  v34

def k0_cond2 (i : grid0.Coords) : BitVec 1 :=
  let arg1 : BitVec 32 := BitVec.ofNat 32 (i 1).val
  let c0_i32_11 : BitVec 32 := 0#32
  let v35 : BitVec 1 := Scalar.cmpi .ne arg1 c0_i32_11
  let v36 : BitVec 32 := Scalar.extui v35
  let c0_i32_12 : BitVec 32 := 0#32
  let v37 : BitVec 1 := Scalar.cmpi .ne v36 c0_i32_12
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32x64x10x10x2x2x32_S32x64x12800 : S32x64x10x10x2x2x32.ShapeCasts S32x64x12800
  iota_S1x16x1_d1_w32 : S1x16x1.Iotas .tc 32 [1]
  natLt_1_32 : 1 < 32
  inb_S8x16x12800_S8x16x12800_0_0_0 : ∀ a, (![0, 0, 0] : Fin 3 → Nat) a + S8x16x12800.size a ≤ S8x16x12800.size a
  h_S8x16x12800 : 0 < S8x16x12800.numel
  shapeCasts_S8x16x12800_S8x16x12800 : S8x16x12800.ShapeCasts S8x16x12800
  broadcasts_S1x16x1_S8x16x12800 : S1x16x1.Broadcasts S8x16x12800
  reduces_S8x16x12800_S8x16 : S8x16x12800.Reduces [2] S8x16
  shapeCasts_S8x16_S8x16x1 : S8x16.ShapeCasts S8x16x1
  reduces_S8x16x1_S8x1 : S8x16x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  iota_S1x8x128_d1_w32 : S1x8x128.Iotas .tc 32 [1]
  iota_S1x8x128_d2_w32 : S1x8x128.Iotas .tc 32 [2]
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  reducesTo_S4x8x128_S_d0_1_2 : S4x8x128.ReducesTo [0, 1, 2] S_
  h_S_ : 0 < S_.numel
  reducesTo_S10x10x2x32_S_d0_1_2_3 : S10x10x2x32.ReducesTo [0, 1, 2, 3] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x12800.size a ≤ S32x64x12800.size a
  hwx0_0 : ∀ i : grid0.Coords, EltTy.bits .f32 = 32 ∨ (Rect.block (s := S32x64x12800) S8x16x12800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x12800.size a ≤ S32x64x12800.size a
  hwx0_1 : ∀ i : grid0.Coords, EltTy.bits .f32 = 32 ∨ (Rect.block (s := S32x64x12800) S8x16x12800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

abbrev win0_0 : Pipeline.Window sig grid0 :=
  Pipeline.Window.ofSpec (Memref.whole main_v0) S8x16x12800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x16x12800.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x64x10x10x2x2x32 : Shape := ⟨7, ![32, 64, 10, 10, 2, 2, 32]⟩
abbrev S10x10x2x32 : Shape := ⟨4, ![10, 10, 2, 32]⟩
abbrev S32x63x10x10x2x2x32 : Shape := ⟨7, ![32, 63, 10, 10, 2, 2, 32]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x64x10x10x2x2x32, .f32⟩
  | .hbm, ⟨1, _⟩ => ⟨S32x64x10x10x2x2x32, .f32⟩
  | .hbm, ⟨2, _⟩ => ⟨S10x10x2x32, .f32⟩
  | .hbm, ⟨3, _⟩ => ⟨S10x10x2x32, .f32⟩
  | .hbm, ⟨4, _⟩ => ⟨S32x63x10x10x2x2x32, .f32⟩
  | .hbm, ⟨5, _⟩ => ⟨S_, .f32⟩
  | .hbm, ⟨6, _⟩ => ⟨S_, .f32⟩
  | .hbm, ⟨7, _⟩ => ⟨S32x63x10x10x2x2x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S32x64x10x10x2x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  slices_S32x64x10x10x2x2x32_S32x63x10x10x2x2x32_0_0_0_0_0_0_0 : S32x64x10x10x2x2x32.Slices ![0, 0, 0, 0, 0, 0, 0] S32x63x10x10x2x2x32
  reducesTo_S32x63x10x10x2x2x32_S_d0_1_2_3_4_5_6 : S32x63x10x10x2x2x32.ReducesTo [0, 1, 2, 3, 4, 5, 6] S_
  h_S_ : 0 < S_.numel
  reducesTo_S10x10x2x32_S_d0_1_2_3 : S10x10x2x32.ReducesTo [0, 1, 2, 3] S_

variable [Facts₀]

class Facts : Prop extends Facts₀ where

variable [Facts]
-- ==== Proof.PointRunsBits.lean ====
/-
  The kernel body of `Kernel` at a symbolic grid point (bi, li) of its 4 x 4 grid. The body reads two staged
  blocks x0, x1 of shape [8, 16, 12800], forms the block total of (x0 + x1) * mask (the mask keeps the rows whose
  global row number 16 * li + l is below 63), places that total at position [0, 0, 0] of a [1, 8, 128] block that is
  zero elsewhere, and then either stores that block into the result's buffer (li = 0) or adds it to what the buffer
  already holds (li ≠ 0). Two runs, one per kind of point, each from the two input buffers at their contents and the
  result's buffer at its contents (anything at a first step), each leaving the inputs as they were and the result's
  buffer at what the one store leaves, read back as the canonical contents of that store.
-/
import proofs.«128942_j65566970741223_2_alg».proof.Proof.Gen.Kernel
import proofs.«128942_j65566970741223_2_alg».proof.Proof.Gen.Kernel.Skeleton
import proofs.«128942_j65566970741223_2_alg».proof.Proof.Gen.Kernel.Launch
import Idealize.ShloMosaic.Lib.Writes
import Idealize.ShloMosaic.Lib.Pipeline.FrameBody
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle both input loads go through: the whole [8, 16, 12800] block at zero offsets. -/
abbrev rIn : Rect S8x16x12800 := Rect.unit (s := S8x16x12800) ![0, 0, 0] S8x16x12800.size inb_S8x16x12800_S8x16x12800_0_0_0
/-- The rectangle every access of the result's buffer goes through: the whole [1, 8, 128] block at zero offsets. -/
abbrev rOut : Rect S1x8x128 := Rect.unit (s := S1x8x128) ![0, 0, 0] S1x8x128.size inb_S1x8x128_S1x8x128_0_0_0

/-- A point is a first step of its row of the grid (li = 0), -/
abbrev IsFirst (t : Fin cfg0.N) : Prop := k0_cond1 (grid0.coords t) = 1#1
/-- or a later one (li ≠ 0); exactly one of the two holds at every point. -/
abbrev IsLater (t : Fin cfg0.N) : Prop := k0_cond2 (grid0.coords t) = 1#1

/-- What a first step leaves in the result's buffer: the masked block total at [0, 0, 0], zero elsewhere. -/
abbrev firstv (i : grid0.Coords) (x0 x1 : Vec F S8x16x12800 .f32) : Vec F S1x8x128 .f32 :=
  View.canon [⟨rOut, k0_pay1 i (View.ld x0 rIn) (View.ld x1 rIn)⟩]
/-- What a later step leaves there: the buffer's contents `a` plus that block. -/
abbrev stepv (i : grid0.Coords) (x0 x1 : Vec F S8x16x12800 .f32) (a : Vec F S1x8x128 .f32) : Vec F S1x8x128 .f32 :=
  View.canon [⟨rOut, k0_pay2 i (View.ld x0 rIn) (View.ld x1 rIn) (View.ld a rOut)⟩]

omit [FloatOps F] in
/-- One store through the whole-block rectangle covers the block. -/
theorem cover1 (p : Vec F S1x8x128 .f32) (y : S1x8x128.Idx) :
    ∃ pc ∈ ([⟨rOut, p⟩] : List (View.Piece (Elt F) S1x8x128 .f32)), y ∈ pc.1.set :=
  View.cover_of_tiled [⟨rOut, p⟩] S1x8x128.size (by rfl) y

section Runs

variable (c : Dev nD) (t : Fin cfg0.N)
  (M0 : Memref sig .tc .vmem S8x16x12800 .f32) (h0 : M0.IsWhole)
  (M1 : Memref sig .tc .vmem S8x16x12800 .f32) (h1 : M1.IsWhole)
  (M2 : Memref sig .tc .vmem S1x8x128 .f32) (h2 : M2.IsWhole)
  (x0 x1 : Vec F S8x16x12800 .f32) (a : Vec F S1x8x128 .f32)

local notation "BODY" => cc0__cs_reduce_kernel (grid0.coords t) M0 h0 M1 h1 M2 h2

/-- A first step (li = 0): the result's buffer, whatever it held, ends at `firstv` of the two input blocks. -/
theorem run_first (hA : IsFirst t) (hB : ¬ IsLater t) (Q : PUnit → sProp 𝕄) :
    iprop(owns (c : Thread nD τ) M0 fullShare x0 ∗ owns (c : Thread nD τ) M1 fullShare x1 ∗ (∃ d, owns (c : Thread nD τ) M2 fullShare d)
      ∗ (iprop(owns (c : Thread nD τ) M0 fullShare x0 ∗ owns (c : Thread nD τ) M1 fullShare x1
          ∗ owns (c : Thread nD τ) M2 fullShare (firstv (grid0.coords t) x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%d2, %f2, %hf2, H2⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact H2); ipureintro; exact View.read_writes_eq_canon _ _ _ (cover1 _)

/-- A later step (li ≠ 0): the result's buffer at `a` ends at `stepv` of the two input blocks and `a`. -/
theorem run_later (hA : ¬ IsFirst t) (hB : IsLater t) (Q : PUnit → sProp 𝕄) :
    iprop(owns (c : Thread nD τ) M0 fullShare x0 ∗ owns (c : Thread nD τ) M1 fullShare x1 ∗ owns (c : Thread nD τ) M2 fullShare a
      ∗ (iprop(owns (c : Thread nD τ) M0 fullShare x0 ∗ owns (c : Thread nD τ) M1 fullShare x1
          ∗ owns (c : Thread nD τ) M2 fullShare (stepv (grid0.coords t) x0 x1 a)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, Hk⟩
  subst hf0 hf1 hf2
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact H2); ipureintro; exact View.read_writes_eq_canon _ _ _ (cover1 _)

end Runs

end Cert.Proof.Kernel

end
-- ==== Proof.GridRunBits.lean ====
/-
  The run of `Kernel` over its grid. The sixteen points are numbered t = 4 * bi + li. At the points with li = 0 the
  body overwrites the result's staging buffer with the point's block (`firstv`); at the others it adds the point's
  block to what the previous point left (`stepv`): the buffer's contents after each point are therefore defined by
  recursion on the point (`outsAt`). The result's window is written back after the points with li = 3 and never
  between, its block index depends on bi only, and at every point one of the two branches stores into it (it is never
  idle), so at a point with li ≠ 0 the buffer still holds what the previous point left. With that the body's two runs
  give the obligation the launch theorem asks at every point, and the launch gives the run of the whole program:
  it terminates, faults nowhere, leaves the four argument arrays as they were, and leaves the result's array at the
  library's account of the written-back blocks.
-/
import proofs.«128942_j65566970741223_2_alg».proof.Proof.PointRunsBits
import proofs.«128942_j65566970741223_2_alg».proof.Proof.Gen.Kernel.Frame
import proofs.«128942_j65566970741223_2_alg».proof.Proof.Gen.Kernel.Points

set_option maxRecDepth 16384

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The kinds of point -/

theorem N_sixteen : cfg0.N = 16 := N_0

/-- A point is a first step iff its number is ≡ 0 (mod 4), a later one iff it is not. -/
theorem isFirst_iff : ∀ t : Fin cfg0.N, IsFirst t ↔ t.val % 4 = 0 :=
  (by decide +kernel : ∀ t : Fin grid0.N, k0_cond1 (grid0.coords t) = 1#1 ↔ t.val % 4 = 0)
theorem isLater_iff : ∀ t : Fin cfg0.N, IsLater t ↔ t.val % 4 ≠ 0 :=
  (by decide +kernel : ∀ t : Fin grid0.N, k0_cond2 (grid0.coords t) = 1#1 ↔ t.val % 4 ≠ 0)

/-- Of "li = 0" and "li ≠ 0" one holds whatever li is: the result's window is idle nowhere. -/
theorem live2 (i : cfg0.grid.Coords) : cfg0.idle 2 i = false := by
  have h : ∀ k : Fin 4,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)) = false := by decide
  exact h (i 1)
theorem idle_0 (t : Fin cfg0.N) : idle0 0 (grid0.coords t) = false := rfl
theorem idle_1 (t : Fin cfg0.N) : idle0 1 (grid0.coords t) = false := rfl
theorem idle_2 (t : Fin cfg0.N) : cfg0.idle 2 (cfg0.grid.coords t) = false := live2 (cfg0.grid.coords t)

variable (m : (ℓ : Loc nD τ sig) → Buf (Elt F) ℓ) (ρ : Dev nD → PrngReg)

/-! ## The result's staging buffer after each point -/

/-- What the result's staging buffer holds after point `n` of core `c`'s run: a first step leaves `firstv` of the
    point's two input blocks, a later one `stepv` of them and of what the point before left. -/
def outsAt (c : Dev nD) : (n : ℕ) → n < cfg0.N → Vec F S1x8x128 .f32
  | 0, hn => firstv (grid0.coords ⟨0, hn⟩) (iblk m c 0 ⟨0, hn⟩) (iblk m c 1 ⟨0, hn⟩)
  | n + 1, hn =>
    if (n + 1) % 4 = 0 then firstv (grid0.coords ⟨n + 1, hn⟩) (iblk m c 0 ⟨n + 1, hn⟩) (iblk m c 1 ⟨n + 1, hn⟩)
    else stepv (grid0.coords ⟨n + 1, hn⟩) (iblk m c 0 ⟨n + 1, hn⟩) (iblk m c 1 ⟨n + 1, hn⟩) (outsAt c n (Nat.lt_of_succ_lt hn))

theorem outsAt_first (c : Dev nD) (t : Fin cfg0.N) (h : t.val % 4 = 0) :
    outsAt m c t.val t.isLt = firstv (grid0.coords t) (iblk m c 0 t) (iblk m c 1 t) := by
  obtain ⟨k, hk⟩ := t
  cases k with
  | zero => rfl
  | succ k => show (if (k + 1) % 4 = 0 then _ else _) = _; rw [if_pos h]

theorem outsAt_later (c : Dev nD) (t : Fin cfg0.N) (h : t.val % 4 ≠ 0) (hp : t.val - 1 < cfg0.N) :
    outsAt m c t.val t.isLt = stepv (grid0.coords t) (iblk m c 0 t) (iblk m c 1 t) (outsAt m c (t.val - 1) hp) := by
  obtain ⟨k, hk⟩ := t
  cases k with
  | zero => exact absurd rfl h
  | succ k => show (if (k + 1) % 4 = 0 then _ else _) = _; rw [if_neg h]; rfl

/-! ## The proof data -/

/-- The proof data of the pipeline on core `c`: the arrays as the region finds them; after the body at point `t`
    each input's buffer at its block and the result's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outsAt m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later step the result's current staging buffer holds what the body left at the point before: the point is
    not the first, the point before (its li is not 3) wrote nothing back, the window is live and uncut. -/
theorem before_2_later (c : Dev nD) (t : Fin cfg0.N) (h : t.val % 4 ≠ 0) (d) :
    (dats m 0 c).before 2 t d = outsAt m c (t.val - 1) (Nat.lt_of_le_of_lt (Nat.sub_le _ _) t.isLt) := by
  have hN : t.val < 16 := lt_of_lt_of_eq t.isLt N_sixteen
  rw [Dat.before_out_kept _ 2 rfl t (by omega)
    (Bool.eq_false_iff.mpr fun hf => by have := (flush0_2 _).mp hf; dsimp only at this; omega)
    live2 (fun _ _ => rfl)]
  dsimp only [dats]

/-! ## The body obligation -/

set_option maxHeartbeats 800000 in
/-- The library's body obligation at every point, by the point's kind: the run of that kind between the invariant
    (passed through unread) and the three buffers at what the proof data say. -/
theorem body_obligation (c : Dev nD) : BodyObligation (dats (F := F) m 0 c) (defs₀ (F := F)) Variants.none () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt N_sixteen
  by_cases hA : IsFirst t
  · have h0 : t.val % 4 = 0 := (isFirst_iff t).mp hA
    have hB : ¬ IsLater t := fun h => (isLater_iff t).mp h h0
    rw [idle_2 t]
    simp only [idle_0, idle_1, before_0, before_1, after_0, after_1, after_2]
    rw [outsAt_first m c t h0]
    iintro ⟨HΦ, Ho, ⟨%d0, H0⟩, ⟨%d1, H1⟩, ⟨%d2, H2⟩⟩
    iapply (run_first c t (st0_0 t) (hstage0_0 ((cfg0.slots t 0).cast nbuf0_0)) (st0_1 t) (hstage0_1 ((cfg0.slots t 1).cast nbuf0_1))
      (st0_2 t) (hstage0_2 ((cfg0.slots t 2).cast nbuf0_2)) (iblk m c 0 t) (iblk m c 1 t) hA hB _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h0 : t.val % 4 ≠ 0 := fun h => hA ((isFirst_iff t).mpr h)
    have hB : IsLater t := (isLater_iff t).mpr h0
    rw [idle_2 t]
    simp only [idle_0, idle_1, before_0, before_1, before_2_later m c t h0, after_0, after_1, after_2]
    rw [outsAt_later m c t h0 (Nat.lt_of_le_of_lt (Nat.sub_le _ _) t.isLt)]
    iintro ⟨HΦ, Ho, ⟨%d0, H0⟩, ⟨%d1, H1⟩, ⟨%d2, H2⟩⟩
    iapply (run_later c t (st0_0 t) (hstage0_0 ((cfg0.slots t 0).cast nbuf0_0)) (st0_1 t) (hstage0_1 ((cfg0.slots t 1).cast nbuf0_1))
      (st0_2 t) (hstage0_2 ((cfg0.slots t 2).cast nbuf0_2)) (iblk m c 0 t) (iblk m c 1 t)
      (outsAt m c (t.val - 1) (Nat.lt_of_le_of_lt (Nat.sub_le _ _) t.isLt)) hA hB _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-! ## The run and the frame -/

set_option backward.isDefEq.respectTransparency.types false in
/-- Every weakly fair execution of the program on the TensorCores terminates, and every final state has every array of
    the pipeline at what the library computes from the proof data and every other unscoped buffer as the host
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, faults nowhere, and its four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.Kernel

end
-- ==== Proof.PointRunsIdeal.lean ====
/-
  The kernel body of `KernelIdeal` at a symbolic grid point (bi, li) of its 4 x 4 grid. The body reads two staged
  blocks x0, x1 of shape [8, 16, 12800], forms the block total of (x0 + x1) * mask (the mask keeps the rows whose
  global row number 16 * li + l is below 63), places that total at position [0, 0, 0] of a [1, 8, 128] block that is
  zero elsewhere, and then either stores that block into the result's buffer (li = 0) or adds it to what the buffer
  already holds (li ≠ 0). Two runs, one per kind of point, each from the two input buffers at their contents and the
  result's buffer at its contents (anything at a first step), each leaving the inputs as they were and the result's
  buffer at what the one store leaves, read back as the canonical contents of that store.
-/
import proofs.«128942_j65566970741223_2_alg».proof.Proof.Gen.KernelIdeal
import proofs.«128942_j65566970741223_2_alg».proof.Proof.Gen.KernelIdeal.Skeleton
import proofs.«128942_j65566970741223_2_alg».proof.Proof.Gen.KernelIdeal.Launch
import Idealize.ShloMosaic.Lib.Writes
import Idealize.ShloMosaic.Lib.Pipeline.FrameBody
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rectangle both input loads go through: the whole [8, 16, 12800] block at zero offsets. -/
abbrev rIn : Rect S8x16x12800 := Rect.unit (s := S8x16x12800) ![0, 0, 0] S8x16x12800.size inb_S8x16x12800_S8x16x12800_0_0_0
/-- The rectangle every access of the result's buffer goes through: the whole [1, 8, 128] block at zero offsets. -/
abbrev rOut : Rect S1x8x128 := Rect.unit (s := S1x8x128) ![0, 0, 0] S1x8x128.size inb_S1x8x128_S1x8x128_0_0_0

/-- A point is a first step of its row of the grid (li = 0), -/
abbrev IsFirst (t : Fin cfg0.N) : Prop := k0_cond1 (grid0.coords t) = 1#1
/-- or a later one (li ≠ 0); exactly one of the two holds at every point. -/
abbrev IsLater (t : Fin cfg0.N) : Prop := k0_cond2 (grid0.coords t) = 1#1

/-- What a first step leaves in the result's buffer: the masked block total at [0, 0, 0], zero elsewhere. -/
abbrev firstv (i : grid0.Coords) (x0 x1 : Vec F S8x16x12800 .f32) : Vec F S1x8x128 .f32 :=
  View.canon [⟨rOut, k0_pay1 i (View.ld x0 rIn) (View.ld x1 rIn)⟩]
/-- What a later step leaves there: the buffer's contents `a` plus that block. -/
abbrev stepv (i : grid0.Coords) (x0 x1 : Vec F S8x16x12800 .f32) (a : Vec F S1x8x128 .f32) : Vec F S1x8x128 .f32 :=
  View.canon [⟨rOut, k0_pay2 i (View.ld x0 rIn) (View.ld x1 rIn) (View.ld a rOut)⟩]

omit [FloatOps F] in
/-- One store through the whole-block rectangle covers the block. -/
theorem cover1 (p : Vec F S1x8x128 .f32) (y : S1x8x128.Idx) :
    ∃ pc ∈ ([⟨rOut, p⟩] : List (View.Piece (Elt F) S1x8x128 .f32)), y ∈ pc.1.set :=
  View.cover_of_tiled [⟨rOut, p⟩] S1x8x128.size (by rfl) y

section Runs

variable (c : Dev nD) (t : Fin cfg0.N)
  (M0 : Memref sig .tc .vmem S8x16x12800 .f32) (h0 : M0.IsWhole)
  (M1 : Memref sig .tc .vmem S8x16x12800 .f32) (h1 : M1.IsWhole)
  (M2 : Memref sig .tc .vmem S1x8x128 .f32) (h2 : M2.IsWhole)
  (x0 x1 : Vec F S8x16x12800 .f32) (a : Vec F S1x8x128 .f32)

local notation "BODY" => cc0__cs_reduce_kernel (grid0.coords t) M0 h0 M1 h1 M2 h2

/-- A first step (li = 0): the result's buffer, whatever it held, ends at `firstv` of the two input blocks. -/
theorem run_first (hA : IsFirst t) (hB : ¬ IsLater t) (Q : PUnit → sProp 𝕄) :
    iprop(owns (c : Thread nD τ) M0 fullShare x0 ∗ owns (c : Thread nD τ) M1 fullShare x1 ∗ (∃ d, owns (c : Thread nD τ) M2 fullShare d)
      ∗ (iprop(owns (c : Thread nD τ) M0 fullShare x0 ∗ owns (c : Thread nD τ) M1 fullShare x1
          ∗ owns (c : Thread nD τ) M2 fullShare (firstv (grid0.coords t) x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%d2, %f2, %hf2, H2⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact H2); ipureintro; exact View.read_writes_eq_canon _ _ _ (cover1 _)

/-- A later step (li ≠ 0): the result's buffer at `a` ends at `stepv` of the two input blocks and `a`. -/
theorem run_later (hA : ¬ IsFirst t) (hB : IsLater t) (Q : PUnit → sProp 𝕄) :
    iprop(owns (c : Thread nD τ) M0 fullShare x0 ∗ owns (c : Thread nD τ) M1 fullShare x1 ∗ owns (c : Thread nD τ) M2 fullShare a
      ∗ (iprop(owns (c : Thread nD τ) M0 fullShare x0 ∗ owns (c : Thread nD τ) M1 fullShare x1
          ∗ owns (c : Thread nD τ) M2 fullShare (stepv (grid0.coords t) x0 x1 a)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, Hk⟩
  subst hf0 hf1 hf2
  sl_exec! (disch := assumption)
  sl_step
  iapply Hk
  isplitl [H0]; · iexists f0; isplitr; (· ipureintro; rfl); iexact H0
  isplitl [H1]; · iexists f1; isplitr; (· ipureintro; rfl); iexact H1
  iexists _; isplitr; swap; (· iexact H2); ipureintro; exact View.read_writes_eq_canon _ _ _ (cover1 _)

end Runs

end Cert.Proof.KernelIdeal

end
-- ==== Proof.GridRunIdeal.lean ====
/-
  The run of `KernelIdeal` over its grid. The sixteen points are numbered t = 4 * bi + li. At the points with li = 0 the
  body overwrites the result's staging buffer with the point's block (`firstv`); at the others it adds the point's
  block to what the previous point left (`stepv`): the buffer's contents after each point are therefore defined by
  recursion on the point (`outsAt`). The result's window is written back after the points with li = 3 and never
  between, its block index depends on bi only, and at every point one of the two branches stores into it (it is never
  idle), so at a point with li ≠ 0 the buffer still holds what the previous point left. With that the body's two runs
  give the obligation the launch theorem asks at every point, and the launch gives the run of the whole program:
  it terminates, faults nowhere, leaves the four argument arrays as they were, and leaves the result's array at the
  library's account of the written-back blocks.
-/
import proofs.«128942_j65566970741223_2_alg».proof.Proof.PointRunsIdeal
import proofs.«128942_j65566970741223_2_alg».proof.Proof.Gen.KernelIdeal.Frame
import proofs.«128942_j65566970741223_2_alg».proof.Proof.Gen.KernelIdeal.Points

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The kinds of point -/

theorem N_sixteen : cfg0.N = 16 := N_0

/-- A point is a first step iff its number is ≡ 0 (mod 4), a later one iff it is not. -/
theorem isFirst_iff : ∀ t : Fin cfg0.N, IsFirst t ↔ t.val % 4 = 0 :=
  (by decide +kernel : ∀ t : Fin grid0.N, k0_cond1 (grid0.coords t) = 1#1 ↔ t.val % 4 = 0)
theorem isLater_iff : ∀ t : Fin cfg0.N, IsLater t ↔ t.val % 4 ≠ 0 :=
  (by decide +kernel : ∀ t : Fin grid0.N, k0_cond2 (grid0.coords t) = 1#1 ↔ t.val % 4 ≠ 0)

/-- Of "li = 0" and "li ≠ 0" one holds whatever li is: the result's window is idle nowhere. -/
theorem live2 (i : cfg0.grid.Coords) : cfg0.idle 2 i = false := by
  have h : ∀ k : Fin 4,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)) = false := by decide
  exact h (i 1)
theorem idle_0 (t : Fin cfg0.N) : idle0 0 (grid0.coords t) = false := rfl
theorem idle_1 (t : Fin cfg0.N) : idle0 1 (grid0.coords t) = false := rfl
theorem idle_2 (t : Fin cfg0.N) : cfg0.idle 2 (cfg0.grid.coords t) = false := live2 (cfg0.grid.coords t)

variable (m : (ℓ : Loc nD τ sig) → Buf (Elt F) ℓ) (ρ : Dev nD → PrngReg)

/-! ## The result's staging buffer after each point -/

/-- What the result's staging buffer holds after point `n` of core `c`'s run: a first step leaves `firstv` of the
    point's two input blocks, a later one `stepv` of them and of what the point before left. -/
def outsAt (c : Dev nD) : (n : ℕ) → n < cfg0.N → Vec F S1x8x128 .f32
  | 0, hn => firstv (grid0.coords ⟨0, hn⟩) (iblk m c 0 ⟨0, hn⟩) (iblk m c 1 ⟨0, hn⟩)
  | n + 1, hn =>
    if (n + 1) % 4 = 0 then firstv (grid0.coords ⟨n + 1, hn⟩) (iblk m c 0 ⟨n + 1, hn⟩) (iblk m c 1 ⟨n + 1, hn⟩)
    else stepv (grid0.coords ⟨n + 1, hn⟩) (iblk m c 0 ⟨n + 1, hn⟩) (iblk m c 1 ⟨n + 1, hn⟩) (outsAt c n (Nat.lt_of_succ_lt hn))

theorem outsAt_first (c : Dev nD) (t : Fin cfg0.N) (h : t.val % 4 = 0) :
    outsAt m c t.val t.isLt = firstv (grid0.coords t) (iblk m c 0 t) (iblk m c 1 t) := by
  obtain ⟨k, hk⟩ := t
  cases k with
  | zero => rfl
  | succ k => show (if (k + 1) % 4 = 0 then _ else _) = _; rw [if_pos h]

theorem outsAt_later (c : Dev nD) (t : Fin cfg0.N) (h : t.val % 4 ≠ 0) (hp : t.val - 1 < cfg0.N) :
    outsAt m c t.val t.isLt = stepv (grid0.coords t) (iblk m c 0 t) (iblk m c 1 t) (outsAt m c (t.val - 1) hp) := by
  obtain ⟨k, hk⟩ := t
  cases k with
  | zero => exact absurd rfl h
  | succ k => show (if (k + 1) % 4 = 0 then _ else _) = _; rw [if_neg h]; rfl

/-! ## The proof data -/

/-- The proof data of the pipeline on core `c`: the arrays as the region finds them; after the body at point `t`
    each input's buffer at its block and the result's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outsAt m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later step the result's current staging buffer holds what the body left at the point before: the point is
    not the first, the point before (its li is not 3) wrote nothing back, the window is live and uncut. -/
theorem before_2_later (c : Dev nD) (t : Fin cfg0.N) (h : t.val % 4 ≠ 0) (d) :
    (dats m 0 c).before 2 t d = outsAt m c (t.val - 1) (Nat.lt_of_le_of_lt (Nat.sub_le _ _) t.isLt) := by
  have hN : t.val < 16 := lt_of_lt_of_eq t.isLt N_sixteen
  rw [Dat.before_out_kept _ 2 rfl t (by omega)
    (Bool.eq_false_iff.mpr fun hf => by have := (flush0_2 _).mp hf; dsimp only at this; omega)
    live2 (fun _ _ => rfl)]
  dsimp only [dats]

/-! ## The body obligation -/

set_option maxHeartbeats 800000 in
/-- The library's body obligation at every point, by the point's kind: the run of that kind between the invariant
    (passed through unread) and the three buffers at what the proof data say. -/
theorem body_obligation (c : Dev nD) : BodyObligation (dats (F := F) m 0 c) (defs₀ (F := F)) Variants.none () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt N_sixteen
  by_cases hA : IsFirst t
  · have h0 : t.val % 4 = 0 := (isFirst_iff t).mp hA
    have hB : ¬ IsLater t := fun h => (isLater_iff t).mp h h0
    rw [idle_2 t]
    simp only [idle_0, idle_1, before_0, before_1, after_0, after_1, after_2]
    rw [outsAt_first m c t h0]
    iintro ⟨HΦ, Ho, ⟨%d0, H0⟩, ⟨%d1, H1⟩, ⟨%d2, H2⟩⟩
    iapply (run_first c t (st0_0 t) (hstage0_0 ((cfg0.slots t 0).cast nbuf0_0)) (st0_1 t) (hstage0_1 ((cfg0.slots t 1).cast nbuf0_1))
      (st0_2 t) (hstage0_2 ((cfg0.slots t 2).cast nbuf0_2)) (iblk m c 0 t) (iblk m c 1 t) hA hB _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h0 : t.val % 4 ≠ 0 := fun h => hA ((isFirst_iff t).mpr h)
    have hB : IsLater t := (isLater_iff t).mpr h0
    rw [idle_2 t]
    simp only [idle_0, idle_1, before_0, before_1, before_2_later m c t h0, after_0, after_1, after_2]
    rw [outsAt_later m c t h0 (Nat.lt_of_le_of_lt (Nat.sub_le _ _) t.isLt)]
    iintro ⟨HΦ, Ho, ⟨%d0, H0⟩, ⟨%d1, H1⟩, ⟨%d2, H2⟩⟩
    iapply (run_later c t (st0_0 t) (hstage0_0 ((cfg0.slots t 0).cast nbuf0_0)) (st0_1 t) (hstage0_1 ((cfg0.slots t 1).cast nbuf0_1))
      (st0_2 t) (hstage0_2 ((cfg0.slots t 2).cast nbuf0_2)) (iblk m c 0 t) (iblk m c 1 t)
      (outsAt m c (t.val - 1) (Nat.lt_of_le_of_lt (Nat.sub_le _ _) t.isLt)) hA hB _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-! ## The run and the frame -/

set_option backward.isDefEq.respectTransparency.types false in
/-- Every weakly fair execution of the program on the TensorCores terminates, and every final state has every array of
    the pipeline at what the library computes from the proof data and every other unscoped buffer as the host
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, faults nowhere, and its four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.KernelIdeal

end
-- ==== Proof.LibLayout.lean ====
/-
  Layout operations of small ranks read at an index given by its coordinates: the unit axis a `keepdims` sum or a
  `[:, :, None]` adds at the END or in the MIDDLE of a shape, and the broadcasts along such a unit axis.  Each is the
  general "same row-major position" (for a cast) or "zero on the operand's unit axes" (for a broadcast) fact with
  both indices written out.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.LibSums.lean ====
/-
  Lane sums at the ideal values, read at an index given by its coordinates: a sum along the last axis of a rank-2 or
  rank-3 vector is, at each remaining index, the sum of the source over that axis's coordinate.
-/
import Idealize.ShloMosaic.PureOps.Ideal.Laws
import Idealize.ShloMosaic.Lib.ValueIdx

namespace Cert.Lib

open Idealize.ShloMosaic Idealize.ShloMosaic.ValueIdx

/-- A sum along the columns of an `[n, m]` vector reads, at row `r`, the sum of the row. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec FTy.f32.bits) = FKind.add.neutral .f32 hφ) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- A sum along the last axis of an `[a, b, c]` vector reads, at `(i, j)`, the sum over the last coordinate. -/
theorem laneSum3_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec FTy.f32.bits) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => ?_
  exact congrArg src (funext fun a => Fin.ext (by match a with | ⟨0, _⟩ => rfl | ⟨1, _⟩ => rfl | ⟨2, _⟩ => rfl))

end Cert.Lib
-- ==== Proof.LibAxisSums.lean ====
/-
  Lane sums of a rank-3 vector along its middle or its leading axis, at the ideal values, read at an index given by
  its coordinates; and the broadcasts of a rank-3 vector with two or three unit axes, read the same way.  A sum along
  one axis is, at each remaining index, the sum of the source over that axis's coordinate; a broadcast reads the
  operand at zero on each of the operand's unit axes.
-/
import Idealize.ShloMosaic.PureOps.Ideal.Laws
import Idealize.ShloMosaic.Lib.Pipeline.Value
import Idealize.ShloMosaic.Lib.ValueIdx

namespace Cert.Lib

open Idealize.ShloMosaic Idealize.ShloMosaic.ValueIdx

/-- A sum along the middle axis of an `[a, b, c]` vector reads, at `(i, k)`, the sum over the middle coordinate. -/
theorem midSum3_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec FTy.f32.bits) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => ?_
  exact congrArg src (funext fun ax => Fin.ext (by match ax with | ⟨0, _⟩ => rfl | ⟨1, _⟩ => rfl | ⟨2, _⟩ => rfl))

/-- A sum along the leading axis of an `[a, b, c]` vector reads, at `(j, k)`, the sum over the leading coordinate. -/
theorem leadSum3_apply {a b c : ℕ} (src : FVec Ideal ⟨3, ![a, b, c]⟩ .f32)
    (h : (⟨3, ![a, b, c]⟩ : Shape).Reduces [0] ⟨2, ![b, c]⟩)
    (hφ : FKind.Formats .f32) (hacc : (0x00000000#32 : BitVec FTy.f32.bits) = FKind.add.neutral .f32 hφ) (j : Fin b) (k : Fin c) :
    multiReduction .add [0] ⟨2, ![b, c]⟩ src 0x00000000#32 h hφ hacc (ix2 j k) = ∑ i : Fin a, src (ix3 i j k) := by
  refine (Ideal.multiReduction_add_single src 0x00000000#32 h hφ hacc (ix2 j k)).trans ?_
  refine Finset.sum_congr rfl fun i _ => ?_
  exact congrArg src (funext fun ax => Fin.ext (by match ax with | ⟨0, _⟩ => rfl | ⟨1, _⟩ => rfl | ⟨2, _⟩ => rfl))

variable {α : Type}

/-- A `[1, b, 1]` array broadcast to `[a, b, c]` reads, at `(i, j, k)`, the operand at `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-- A `[1, 1, 1]` array broadcast to `[a, b, c]` reads, at every index, the operand's one element. -/
theorem broadcastTo_111_abc_apply {a b c : ℕ} (v : (⟨3, ![1, 1, 1]⟩ : Shape).Idx → α)
    (h : (⟨3, ![1, 1, 1]⟩ : Shape).Broadcasts ⟨3, ![a, b, c]⟩) (i : Fin a) (j : Fin b) (k : Fin c) :
    broadcastTo ⟨3, ![a, b, c]⟩ v h (ix3 i j k) = v (ix3 (0 : Fin 1) (0 : Fin 1) (0 : Fin 1)) := by
  refine broadcastTo_apply v h (ix3 i j k) (ix3 (0 : Fin 1) (0 : Fin 1) (0 : Fin 1)) fun ax => ?_
  match ax with
  | ⟨0, _⟩ => rfl
  | ⟨1, _⟩ => rfl
  | ⟨2, _⟩ => rfl

end Cert.Lib
-- ==== Proof.BlockValue.lean ====
/-
  What one grid point contributes, as extended reals. The body's stored block is a `[1, 8, 128]` array whose entry
  `[0, 0, 0]` is the BLOCK TOTAL — the sum over the point's `[8, 16, 12800]` blocks `x0`, `x1` of
  `(x0 + x1) · mask`, the mask being 1 on the rows whose row number in the whole array, `16 · li + l`, is below 63 and 0
  on the others — and whose other entries are zero. The three lane sums (along the last, the middle and the leading
  axis, with unit-axis casts between them) compose to the triple sum; the two integer comparisons that select the
  position and the rows are finite facts about 32-bit words.
-/
import proofs.«128942_j65566970741223_2_alg».proof.Proof.Gen.KernelIdeal.Skeleton
import proofs.«128942_j65566970741223_2_alg».proof.Proof.LibLayout
import proofs.«128942_j65566970741223_2_alg».proof.Proof.LibSums
import proofs.«128942_j65566970741223_2_alg».proof.Proof.LibAxisSums
import Idealize.ShloMosaic.Lib.Pipeline.Value
import Idealize.ShloMosaic.Lib.ValueIdx
import Idealize.ShloMosaic.PureOps.Ideal.Laws

set_option maxRecDepth 16384

noncomputable section

namespace Cert.Proof.BlockValue

open Cert.KernelIdeal Cert.KernelIdeal.Gen
open Idealize.ShloMosaic Idealize.ShloMosaic.ValueIdx

/-- The row mask as an extended real: 1 on the first 63 rows of the whole array, 0 on the last. -/
def rowMask (n : ℕ) : EReal := if n < 63 then 1 else 0

/-- The block total of the point whose second grid coordinate is `li`. -/
def blockTotal (li : ℕ) (x0 x1 : FVec Ideal S8x16x12800 .f32) : EReal :=
  ∑ b : Fin 8, ∑ l : Fin 16, ∑ f : Fin 12800, (x0 (ix3 b l f) + x1 (ix3 b l f)) * rowMask (16 * li + l.val)

/-- A value placed at position `[0, 0]` of an `[8, 128]` tile that is zero elsewhere. -/
def placed (v : EReal) (s : Fin 8) (l : Fin 128) : EReal := if s.val = 0 ∧ l.val = 0 then v else 0

/-! ## The two integer masks -/

/-- "Sublane 0 and lane 0", as the words compare. -/
theorem posMask_bits : ∀ (s : Fin 8) (l : Fin 128),
    IntOp.andi (IntOp.cmpi .eq (BitVec.ofNat 32 s.val) 0#32) (IntOp.cmpi .eq (BitVec.ofNat 32 l.val) 0#32)
      = if s.val = 0 ∧ l.val = 0 then 1#1 else 0#1 := by decide

/-- "Row `16 · k + l` is below 63", as the words compare (signed), widened to 32 bits. -/
theorem rowMask_bits : ∀ (k : Fin 4) (l : Fin 16),
    (IntOp.cmpi .slt (IntOp.addi (Scalar.muli (BitVec.ofNat 32 k.val) 16#32) (BitVec.ofNat 32 l.val)) 63#32).setWidth 32
      = if 16 * k.val + l.val < 63 then 1#32 else 0#32 := by decide

theorem posMask_apply (h1 : S1x8x128.Iotas .tc 32 [1]) (h2 : S1x8x128.Iotas .tc 32 [2]) (u : Fin 1) (s : Fin 8) (l : Fin 128) :
    andi (cmpi .eq (iota .tc S1x8x128 32 [1] h1) (broadcast S1x8x128 (0#32 : BitVec 32)))
        (cmpi .eq (iota .tc S1x8x128 32 [2] h2) (broadcast S1x8x128 (0#32 : BitVec 32))) (ix3 u s l)
      = if s.val = 0 ∧ l.val = 0 then 1#1 else 0#1 := by
  show IntOp.andi (IntOp.cmpi .eq (iota .tc S1x8x128 32 [1] h1 (ix3 u s l)) 0#32)
      (IntOp.cmpi .eq (iota .tc S1x8x128 32 [2] h2 (ix3 u s l)) 0#32) = _
  rw [iota_single_apply, iota_single_apply]
  exact posMask_bits s l

theorem rowMask_apply (k : Fin 4) (hi : S1x16x1.Iotas .tc 32 [1]) (hlt : 1 < 32) (l : Fin 16) :
    (sitofp .f32 (extui 32 (cmpi .slt (addi (broadcast S1x16x1 (Scalar.muli (BitVec.ofNat 32 k.val) 16#32)) (iota .tc S1x16x1 32 [1] hi))
        (broadcast S1x16x1 (63#32 : BitVec 32))) hlt) : FVec Ideal S1x16x1 .f32) (ix3 (0 : Fin 1) l (0 : Fin 1))
      = rowMask (16 * k.val + l.val) := by
  show ((((IntOp.cmpi .slt (IntOp.addi (Scalar.muli (BitVec.ofNat 32 k.val) 16#32) (iota .tc S1x16x1 32 [1] hi (ix3 (0 : Fin 1) l (0 : Fin 1)))) 63#32).setWidth 32).toInt : ℝ) : EReal) = _
  rw [iota_single_apply]
  show ((((IntOp.cmpi .slt (IntOp.addi (Scalar.muli (BitVec.ofNat 32 k.val) 16#32) (BitVec.ofNat 32 l.val)) 63#32).setWidth 32).toInt : ℝ) : EReal) = _
  rw [rowMask_bits k l]
  have e1 : (1#32 : BitVec 32).toInt = 1 := by decide
  have e0 : (0#32 : BitVec 32).toInt = 0 := by decide
  unfold rowMask
  by_cases hc : 16 * k.val + l.val < 63
  · rw [if_pos hc, if_pos hc, e1]; norm_num
  · rw [if_neg hc, if_neg hc, e0]; norm_num

/-! ## The three lane sums, composed -/

/-- Summing an `[8, 16, 12800]` vector along its last axis, then (as `[8, 16, 1]`) along its middle axis, then (as
    `[8, 1, 1]`) along its leading axis leaves, as a `[1, 1, 1]` vector, the sum over all three coordinates. -/
theorem total_chain (y : FVec Ideal S8x16x12800 .f32)
    (h15 : S8x16x12800.Reduces [2] S8x16) (h16 : S8x16.ShapeCasts S8x16x1)
    (h17 : S8x16x1.Reduces [1] S8x1) (h18 : S8x1.ShapeCasts S8x1x1)
    (h19 : S8x1x1.Reduces [0] S1x1) (h20 : S1x1.ShapeCasts S1x1x1)
    (hφ : FKind.Formats .f32) (hacc : (0x00000000#32 : BitVec FTy.f32.bits) = FKind.add.neutral .f32 hφ) :
    shapeCast S1x1x1 (multiReduction .add [0] S1x1 (shapeCast S8x1x1 (multiReduction .add [1] S8x1
        (shapeCast S8x16x1 (multiReduction .add [2] S8x16 y 0x00000000#32 h15 hφ hacc) h16) 0x00000000#32 h17 hφ hacc) h18)
        0x00000000#32 h19 hφ hacc) h20 (ix3 (0 : Fin 1) (0 : Fin 1) (0 : Fin 1))
      = ∑ b : Fin 8, ∑ l : Fin 16, ∑ f : Fin 12800, y (ix3 b l f) := by
  refine (Cert.Lib.shapeCast_ab_ab1_apply _ h20 (0 : Fin 1) (0 : Fin 1) (0 : Fin 1)).trans ?_
  refine (Cert.Lib.leadSum3_apply _ h19 hφ hacc (0 : Fin 1) (0 : Fin 1)).trans ?_
  refine Finset.sum_congr rfl fun b _ => ?_
  refine (Cert.Lib.shapeCast_ab_ab1_apply _ h18 b (0 : Fin 1) (0 : Fin 1)).trans ?_
  refine (Cert.Lib.midSum3_apply _ h17 hφ hacc b (0 : Fin 1)).trans ?_
  refine Finset.sum_congr rfl fun l _ => ?_
  refine (Cert.Lib.shapeCast_ab_ab1_apply _ h16 b l (0 : Fin 1)).trans ?_
  exact Cert.Lib.laneSum3_apply _ h15 hφ hacc b l

/-! ## The stored blocks at an index -/

/-- A block chosen between `A` and `B` by a position mask that is 1 exactly at `[0, 0]`, with `A` there the value
    `T` and `B` zero, is `T` placed at `[0, 0]`. -/
theorem placed_of (cnd : IVec S1x8x128 1) (A B : FVec Ideal S1x8x128 .f32) (T : EReal) (u : Fin 1) (s : Fin 8) (l : Fin 128)
    (hc : cnd (ix3 u s l) = if s.val = 0 ∧ l.val = 0 then 1#1 else 0#1) (hA : A (ix3 u s l) = T) (hB : B (ix3 u s l) = 0) :
    select cnd A B (ix3 u s l) = placed T s l := by
  show Scalar.select (cnd (ix3 u s l)) (A (ix3 u s l)) (B (ix3 u s l)) = _
  rw [hc, hA, hB]
  unfold placed
  by_cases h : s.val = 0 ∧ l.val = 0
  · rw [if_pos h, if_pos h]; exact select_one _ _
  · rw [if_neg h, if_neg h]; exact select_zero _ _

/-- The block a first step stores: the block total placed at `[0, 0, 0]`. -/
theorem pay1_apply (i : grid0.Coords) (x0 x1 : Vec Ideal S8x16x12800 .f32) (u : Fin 1) (s : Fin 8) (l : Fin 128) :
    k0_pay1 (F := Ideal) i x0 x1 (ix3 u s l) = placed (blockTotal (i 1).val x0 x1) s l := by
  unfold k0_pay1
  refine placed_of _ _ _ _ u s l (posMask_apply _ _ u s l) ?_ ?_
  · refine (Cert.Lib.broadcastTo_111_abc_apply _ _ u s l).trans ?_
    refine (congrFun (shapeCast_self _ _) _).trans ?_
    refine (total_chain _ _ _ _ _ _ _ _ _).trans ?_
    refine Finset.sum_congr rfl fun b _ => Finset.sum_congr rfl fun l' _ => Finset.sum_congr rfl fun f _ => ?_
    refine congrArg₂ (· * ·) (congrArg₂ (· + ·) (congrFun (shapeCast_self x0 _) _) (congrFun (shapeCast_self x1 _) _)) ?_
    refine (Cert.Lib.broadcastTo_1b1_abc_apply _ _ b l' f).trans ?_
    exact rowMask_apply (i 1) _ _ l'
  · show Ideal.ofBits .f32 0x00000000#32 = 0
    exact Ideal.ofBits_zero_f32

/-- The block a later step stores: the buffer's contents plus the block total placed at `[0, 0, 0]`. -/
theorem pay2_apply (i : grid0.Coords) (x0 x1 : Vec Ideal S8x16x12800 .f32) (a : Vec Ideal S1x8x128 .f32)
    (u : Fin 1) (s : Fin 8) (l : Fin 128) :
    k0_pay2 (F := Ideal) i x0 x1 a (ix3 u s l) = (a (ix3 u s l) : EReal) + placed (blockTotal (i 1).val x0 x1) s l := by
  unfold k0_pay2
  exact congrArg₂ (· + ·) (congrFun (shapeCast_self a _) _) (pay1_apply i x0 x1 u s l)

end Cert.Proof.BlockValue

end
-- ==== Proof.FinalArray.lean ====
/-
  The result array of the idealized kernel after its run, as a function of the grid points' block totals. At a point
  4 * q + j of row q of the grid, the result's staging buffer holds, at every index, zero plus the sum over the points
  4 * q, …, 4 * q + j of that point's block total placed at [0, 0, 0]: the first point of a row stores its block, every
  later one adds its own to what the buffer holds. The buffer is written back after the last point of each row into
  block q of the [4, 8, 128] result array, and the four blocks tile that array; so the array ends at
  `finalAt q s l = 0 + Σ_{j < 4} placed (pointTotal (4 q + j)) s l`.
-/
import proofs.«128942_j65566970741223_2_alg».proof.Proof.GridRunIdeal
import proofs.«128942_j65566970741223_2_alg».proof.Proof.BlockValue
import Idealize.ShloMosaic.Lib.Pipeline.Value
import Idealize.ShloMosaic.Lib.ValueIdx

set_option maxRecDepth 16384

noncomputable section

namespace Cert.Proof.KernelIdeal

open Cert.KernelIdeal Cert.KernelIdeal.Gen Cert.Proof.BlockValue
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3 : (![0, 0, 0] : Fin 3 → ℕ) = fun _ => 0 := funext fun a => by fin_cases a <;> rfl

/-- One store through the whole block leaves its payload, and a load through the whole block reads the contents: the
    block a first step leaves is the first payload of the two input blocks, -/
theorem firstv_eq (i : grid0.Coords) (x0 x1 : Vec Ideal S8x16x12800 .f32) : firstv i x0 x1 = k0_pay1 i x0 x1 := by
  unfold firstv
  rw [View.canon_unit_zero hz3, View.ld_unit_zero (S := S8x16x12800) hz3, View.ld_unit_zero (S := S8x16x12800) hz3]

/-- and the block a later step leaves is the second payload of them and of the buffer's contents. -/
theorem stepv_eq (i : grid0.Coords) (x0 x1 : Vec Ideal S8x16x12800 .f32) (a : Vec Ideal S1x8x128 .f32) :
    stepv i x0 x1 a = k0_pay2 i x0 x1 a := by
  unfold stepv
  rw [View.canon_unit_zero hz3, View.ld_unit_zero (S := S8x16x12800) hz3, View.ld_unit_zero (S := S8x16x12800) hz3,
    View.ld_unit_zero (S := S1x8x128) hz3]

/-- The block total of grid point `n` (zero past the grid: those values are never used). -/
def pointTotal (c : Dev nD) (n : ℕ) : EReal :=
  if h : n < cfg0.N then blockTotal ((grid0.coords ⟨n, h⟩) 1).val (iblk m c 0 ⟨n, h⟩) (iblk m c 1 ⟨n, h⟩) else 0

/-- Point `n`'s addend at an index of the result's block. -/
def addend (c : Dev nD) (n : ℕ) (j : S1x8x128.Idx) : EReal := placed (pointTotal m c n) (j 1) (j 2)

/-- THE FOLD. After point `t` the result's staging buffer holds zero plus the addends of the points of `t`'s row of the
    grid up to `t`. -/
theorem outsAt_closed (c : Dev nD) (t : Fin cfg0.N) (j : S1x8x128.Idx) :
    (outsAt m c t.val t.isLt j : EReal) = 0 + ∑ r ∈ Finset.range (t.val % 4 + 1), addend m c (4 * (t.val / 4) + r) j := by
  have hN : cfg0.N = 16 := N_0
  have h' : 4 * (t.val / 4) + t.val % 4 < cfg0.N := by omega
  rw [Pipeline.eq_accAt_of_mod (fun n h => outsAt m c n h) 4
    (fun n h => firstv (grid0.coords ⟨n, h⟩) (iblk m c 0 ⟨n, h⟩) (iblk m c 1 ⟨n, h⟩))
    (fun n h acc => stepv (grid0.coords ⟨n, h⟩) (iblk m c 0 ⟨n, h⟩) (iblk m c 1 ⟨n, h⟩) acc)
    (fun n h hn => outsAt_first m c ⟨n, h⟩ hn)
    (fun n h hn => outsAt_later m c ⟨n + 1, h⟩ hn (Nat.lt_of_succ_lt h))
    (by decide) t.val t.isLt h']
  refine Pipeline.accAt_add_apply (ι := S1x8x128.Idx) (β := EReal) _ _ (fun _ => 0) (addend m c) (4 * (t.val / 4)) 3 ?_ ?_
    (t.val % 4) (by omega) h' j
  · intro h i
    obtain ⟨u, s, l, rfl⟩ : ∃ (u : Fin 1) (s : Fin 8) (l : Fin 128), i = ix3 u s l := ⟨i 0, i 1, i 2, eq_ix3 i⟩
    refine (congrFun (firstv_eq _ _ _) _).trans ((pay1_apply _ _ _ u s l).trans ?_)
    show _ = (0 : EReal) + placed (pointTotal m c (4 * (t.val / 4))) s l
    rw [zero_add]
    unfold pointTotal; rw [dif_pos h]
  · intro n h acc i _ _
    obtain ⟨u, s, l, rfl⟩ : ∃ (u : Fin 1) (s : Fin 8) (l : Fin 128), i = ix3 u s l := ⟨i 0, i 1, i 2, eq_ix3 i⟩
    refine (congrFun (stepv_eq _ _ _ acc) _).trans ((pay2_apply _ _ _ acc u s l).trans ?_)
    show _ = (acc (ix3 u s l) : EReal) + placed (pointTotal m c n) s l
    unfold pointTotal; rw [dif_pos h]

/-- The result array's entry `(q, s, l)` after the run. -/
def finalAt (c : Dev nD) (q : Fin 4) (s : Fin 8) (l : Fin 128) : EReal :=
  0 + ∑ r ∈ Finset.range 4, placed (pointTotal m c (4 * q.val + r)) s l

/-- The result array after the run. -/
def finalG (c : Dev nD) : S4x8x128.Idx → EReal := fun i => finalAt m c (i 0) (i 1) (i 2)

/-- The result window's block index at point `t` is `(t / 4, 0, 0)`: decided over the grid. -/
theorem idx2_facts : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- What a point at the end of a row writes back is block `t / 4` of `finalG`. -/
theorem flushed_eq (c : Dev nD) (t : Fin cfg0.N) (hf : (cfg0.win 2).flush t = true) :
    (dats m 0 c).flushed 2 t = ((cfg0.win 2).blk t).view.read (Elt Ideal) (finalG m c) := by
  have hN : cfg0.N = 16 := N_0
  have h3 : t.val % 4 = 3 := (flush0_2 t).mp hf
  have htl : t.val < 16 := lt_of_lt_of_eq t.isLt hN
  show (cfg0.win 2).cut (grid0.coords t) ((dats m 0 c).after 2 t) = _
  rw [after_2]
  funext y
  obtain ⟨u, s, l, rfl⟩ : ∃ (u : Fin 1) (s : Fin 8) (l : Fin 128), y = ix3 u s l := ⟨y 0, y 1, y 2, eq_ix3 y⟩
  show (outsAt m c t.val t.isLt (ix3 u s l) : EReal) = finalG m c (((cfg0.win 2).blk t).view.emb (ix3 u s l))
  obtain ⟨e0, e1, e2⟩ := idx2_facts t
  have hE : ((cfg0.win 2).blk t).view.emb (ix3 u s l) = (ix3 (⟨t.val / 4, by omega⟩ : Fin 4) s l : S4x8x128.Idx) := by
    funext a; apply Fin.ext
    match a with
    | ⟨0, _⟩ => show win0_2.index t (0 : Fin 3) * 1 + 1 * u.val = t.val / 4; have hu : u.val = 0 := by omega
                omega
    | ⟨1, _⟩ => show win0_2.index t (1 : Fin 3) * 8 + 1 * s.val = s.val; omega
    | ⟨2, _⟩ => show win0_2.index t (2 : Fin 3) * 128 + 1 * l.val = l.val; omega
  rw [hE, outsAt_closed, h3]
  rfl

/-- An index of the result array is in point `t`'s block iff each coordinate is in the block's range on its axis. -/
theorem mem_blk2 (t : Fin cfg0.N) (i : S4x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- THE RESULT ARRAY after the run: every entry `(q, s, l)` is in the block the last point of row `q` wrote back. -/
theorem final_out (c : Dev nD) : (dats m 0 c).arrAt 2 cfg0.N = finalG m c :=
  (dats m 0 c).arrAt_eq_of_cover 2 (finalG m c) (flushed_eq m c) fun i => by
    have hN : cfg0.N = 16 := N_0
    have hN' : grid0.N = 16 := N_0
    have h0 : (i 0).val < 4 := (i 0).isLt
    have h1 : (i 1).val < 8 := (i 1).isLt
    have h2 : (i 2).val < 128 := (i 2).isLt
    refine ⟨⟨4 * (i 0).val + 3, by omega⟩, (flush0_2 _).mpr (by show (4 * (i 0).val + 3) % 4 = 3; omega), ?_⟩
    rw [mem_blk2]
    obtain ⟨e0, e1, e2⟩ := idx2_facts ⟨4 * (i 0).val + 3, by omega⟩
    have e0' : win0_2.index ⟨4 * (i 0).val + 3, by omega⟩ (0 : Fin 3) = (i 0).val := by rw [e0]; show (4 * (i 0).val + 3) / 4 = _; omega
    intro a
    match a with
    | ⟨0, _⟩ => show win0_2.index _ (0 : Fin 3) * 1 ≤ (i 0).val ∧ (i 0).val < win0_2.index _ (0 : Fin 3) * 1 + 1
                rw [e0']; omega
    | ⟨1, _⟩ => show win0_2.index _ (1 : Fin 3) * 8 ≤ (i 1).val ∧ (i 1).val < win0_2.index _ (1 : Fin 3) * 8 + 8
                rw [e1]; omega
    | ⟨2, _⟩ => show win0_2.index _ (2 : Fin 3) * 128 ≤ (i 2).val ∧ (i 2).val < win0_2.index _ (2 : Fin 3) * 128 + 128
                rw [e2]; omega

end Cert.Proof.KernelIdeal

end
-- ==== Proof.SumBridge.lean ====
/-
  The one identity that joins the two programs. On one side, the kernel's sixteen block totals: the sum, over the grid
  points (q, r) and the positions (b, l, f) inside a block, of (A0 + A1) · mask at row 8 q + b, column 16 r + l, lane f
  of the arrays viewed as [32, 64, 12800], the mask 1 on columns below 63 and 0 on the last. On the other, the
  reference's two sums over the slices [:, :63] of the arrays in their own shape [32, 64, 10, 10, 2, 2, 32]. They agree
  on all extended reals, with no finiteness asked: sums may be regrouped and reindexed freely (addition of extended
  reals is commutative and associative), (a + b) · 1 = a · 1 + b · 1 and (a + b) · 0 = a · 0 + b · 0, the reshape
  keeps the first two coordinates of an index (the five trailing axes have 12800 = 10 · 10 · 2 · 2 · 32 elements), and a
  sum of x · mask over a whole axis is the sum of x over the first 63 coordinates of that axis.
-/
import Idealize.ShloMosaic.Shape
import Idealize.ShloMosaic.Lib.ValueIdx
import Mathlib.Data.EReal.Basic
import Mathlib.Algebra.BigOperators.Fin
import Mathlib.Logic.Equiv.Fin.Basic

set_option maxRecDepth 16384

noncomputable section

namespace Cert.Proof.SumBridge

open Idealize.ShloMosaic Idealize.ShloMosaic.ValueIdx

abbrev S3 : Shape := ⟨3, ![32, 64, 12800]⟩
abbrev S7 : Shape := ⟨7, ![32, 64, 10, 10, 2, 2, 32]⟩
abbrev S7c : Shape := ⟨7, ![32, 63, 10, 10, 2, 2, 32]⟩

/-- 1 on the first 63 columns, 0 on the last. -/
def mask (n : ℕ) : EReal := if n < 63 then 1 else 0

theorem add_mul_mask (a b : EReal) (n : ℕ) : (a + b) * mask n = a * mask n + b * mask n := by
  unfold mask; split <;> simp

/-! ## Sums over indices as sums over coordinates -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `8 q + b` of the 32 rows, from the block number and the row inside the block. -/
def join32 (q : Fin 4) (b : Fin 8) : Fin 32 := ⟨8 * q.val + b.val, by have := q.isLt; have := b.isLt; omega⟩
/-- Column `16 r + l` of the 64 columns. -/
def join64 (r : Fin 4) (l : Fin 16) : Fin 64 := ⟨16 * r.val + l.val, by have := r.isLt; have := l.isLt; omega⟩

theorem sum_join32 {M : Type*} [AddCommMonoid M] (g : Fin 32 → M) : ∑ q : Fin 4, ∑ b : Fin 8, g (join32 q b) = ∑ R : Fin 32, g R := by
  have h := Equiv.sum_comp (finProdFinEquiv (m := 4) (n := 8)) g
  rw [Fintype.sum_prod_type] at h
  rw [← h]
  refine Finset.sum_congr rfl fun q _ => Finset.sum_congr rfl fun b _ => congrArg g (Fin.ext ?_)
  show 8 * q.val + b.val = (finProdFinEquiv (q, b)).val
  rw [finProdFinEquiv_apply_val]
  show 8 * q.val + b.val = b.val + 8 * q.val
  omega

theorem sum_join64 {M : Type*} [AddCommMonoid M] (g : Fin 64 → M) : ∑ r : Fin 4, ∑ l : Fin 16, g (join64 r l) = ∑ L : Fin 64, g L := by
  have h := Equiv.sum_comp (finProdFinEquiv (m := 4) (n := 16)) g
  rw [Fintype.sum_prod_type] at h
  rw [← h]
  refine Finset.sum_congr rfl fun r _ => Finset.sum_congr rfl fun l _ => congrArg g (Fin.ext ?_)
  show 16 * r.val + l.val = (finProdFinEquiv (r, l)).val
  rw [finProdFinEquiv_apply_val]
  show 16 * r.val + l.val = l.val + 16 * r.val
  omega

/-! ## The reshape keeps the column -/

/-- The six trailing axes of the seven, and the five trailing axes. -/
abbrev S6t : Shape := ⟨6, fun a => (![32, 64, 10, 10, 2, 2, 32] : Fin 7 → ℕ) a.succ⟩
abbrev S5t : Shape := ⟨5, fun a => (fun a : Fin 6 => (![32, 64, 10, 10, 2, 2, 32] : Fin 7 → ℕ) a.succ) a.succ⟩

theorem numel6 : S6t.numel = 819200 := by decide
theorem numel5 : S5t.numel = 12800 := by decide

/-- The index of the [32, 64, 10, 10, 2, 2, 32] array matched with `i` of the [32, 64, 12800] view has `i`'s column:
    both have the same row-major position, which is (row · 64 + column) · 12800 + a remainder below 12800 on each side. -/
theorem reshape_col (h : S3.numel = S7.numel) (i : S3.Idx) : ((Shape.reshapeEquiv h i) 1).val = (i 1).val := by
  have e : ((S7.rowMajor (Shape.reshapeEquiv h i) : Fin S7.numel) : ℕ) = (S3.rowMajor i : ℕ) := Shape.rowMajor_reshapeEquiv h i
  generalize Shape.reshapeEquiv h i = k at e ⊢
  have e3 : (S3.rowMajor i : ℕ) = ((i 0).val * 64 + (i 1).val) * 12800 + (i 2).val := Shape.rowMajor_val_three i
  have e7 : (S7.rowMajor k : ℕ) = (k 0).val * 819200 + (S6t.rowMajor fun a => k a.succ).val :=
    (Shape.rowMajor_val_succ (n := 6) (d := ![32, 64, 10, 10, 2, 2, 32]) k).trans
      (congrArg (fun x => (k 0).val * x + (S6t.rowMajor fun a => k a.succ).val) numel6)
  have e6 : (S6t.rowMajor fun a => k a.succ).val
      = (k 1).val * 12800 + (S5t.rowMajor fun a => (fun a : Fin 6 => k a.succ) a.succ).val :=
    (Shape.rowMajor_val_succ (n := 5) (d := fun a : Fin 6 => (![32, 64, 10, 10, 2, 2, 32] : Fin 7 → ℕ) a.succ) (fun a => k a.succ)).trans
      (congrArg (fun x => (k 1).val * x + (S5t.rowMajor fun a => (fun a : Fin 6 => k a.succ) a.succ).val) numel5)
  have b5 : (S5t.rowMajor fun a => (fun a : Fin 6 => k a.succ) a.succ).val < 12800 :=
    lt_of_lt_of_eq (S5t.rowMajor fun a => (fun a : Fin 6 => k a.succ) a.succ).isLt numel5
  have hk1 : (k 1).val < 64 := (k 1).isLt
  have hi1 : (i 1).val < 64 := (i 1).isLt
  have hi2 : (i 2).val < 12800 := (i 2).isLt
  rw [e7, e6, e3] at e
  omega

/-! ## The slice [:, :63] as a masked sum -/

/-- The sum of `A · mask` over the whole array is the sum of `A` over the slice that drops the last column. -/
theorem sum_slice (A : S7.Idx → EReal) (idx : S7c.Idx → S7.Idx) (hidx : ∀ (j : S7c.Idx) (a : Fin 7), (idx j a).val = (j a).val) :
    ∑ k : S7.Idx, A k * mask (k 1).val = ∑ j : S7c.Idx, A (idx j) := by
  have hmul : ∀ k : S7.Idx, A k * mask (k 1).val = if (k 1).val < 63 then A k else 0 := by
    intro k; unfold mask; split <;> simp
  rw [Finset.sum_congr rfl fun k _ => hmul k, ← Finset.sum_filter]
  symm
  refine Finset.sum_bij (fun j _ => idx j) ?_ ?_ ?_ ?_
  · intro j _
    rw [Finset.mem_filter]
    refine ⟨Finset.mem_univ _, ?_⟩
    rw [hidx]; exact (j 1).isLt
  · intro j _ j' _ hjj
    funext a
    apply Fin.ext
    have := congrArg (fun k : S7.Idx => (k a).val) hjj
    simp only [hidx] at this
    exact this
  · intro k hk
    rw [Finset.mem_filter] at hk
    have h63 : (k 1).val < 63 := hk.2
    refine ⟨fun a => match a with
      | ⟨0, _⟩ => ⟨(k 0).val, (k 0).isLt⟩
      | ⟨1, _⟩ => ⟨(k 1).val, h63⟩
      | ⟨2, _⟩ => ⟨(k 2).val, (k 2).isLt⟩
      | ⟨3, _⟩ => ⟨(k 3).val, (k 3).isLt⟩
      | ⟨4, _⟩ => ⟨(k 4).val, (k 4).isLt⟩
      | ⟨5, _⟩ => ⟨(k 5).val, (k 5).isLt⟩
      | ⟨6, _⟩ => ⟨(k 6).val, (k 6).isLt⟩, Finset.mem_univ _, ?_⟩
    funext a
    apply Fin.ext
    rw [hidx]
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · intro j _; rfl

/-! ## The bridge -/

/-- The sixteen block totals add up to the two slice sums. -/
theorem bridge (A0 A1 : S7.Idx → EReal) (h : S3.numel = S7.numel) (idx0 idx1 : S7c.Idx → S7.Idx)
    (hidx0 : ∀ (j : S7c.Idx) (a : Fin 7), (idx0 j a).val = (j a).val)
    (hidx1 : ∀ (j : S7c.Idx) (a : Fin 7), (idx1 j a).val = (j a).val) :
    ∑ q : Fin 4, ∑ r : Fin 4, ∑ b : Fin 8, ∑ l : Fin 16, ∑ f : Fin 12800,
        (A0 (Shape.reshapeEquiv h (ix3 (join32 q b) (join64 r l) f)) + A1 (Shape.reshapeEquiv h (ix3 (join32 q b) (join64 r l) f)))
          * mask (16 * r.val + l.val)
      = ∑ j : S7c.Idx, A0 (idx0 j) + ∑ j : S7c.Idx, A1 (idx1 j) := by
  let T : Fin 32 → Fin 64 → Fin 12800 → EReal := fun R L f =>
    (A0 (Shape.reshapeEquiv h (ix3 R L f)) + A1 (Shape.reshapeEquiv h (ix3 R L f))) * mask L.val
  have s1 : ∑ q : Fin 4, ∑ r : Fin 4, ∑ b : Fin 8, ∑ l : Fin 16, ∑ f : Fin 12800,
        (A0 (Shape.reshapeEquiv h (ix3 (join32 q b) (join64 r l) f)) + A1 (Shape.reshapeEquiv h (ix3 (join32 q b) (join64 r l) f)))
          * mask (16 * r.val + l.val)
      = ∑ q : Fin 4, ∑ b : Fin 8, ∑ r : Fin 4, ∑ l : Fin 16, ∑ f : Fin 12800, T (join32 q b) (join64 r l) f :=
    Finset.sum_congr rfl fun q _ => Finset.sum_comm
  have s2 : ∑ q : Fin 4, ∑ b : Fin 8, ∑ r : Fin 4, ∑ l : Fin 16, ∑ f : Fin 12800, T (join32 q b) (join64 r l) f
      = ∑ R : Fin 32, ∑ L : Fin 64, ∑ f : Fin 12800, T R L f := by
    rw [← sum_join32 (fun R => ∑ L : Fin 64, ∑ f : Fin 12800, T R L f)]
    refine Finset.sum_congr rfl fun q _ => Finset.sum_congr rfl fun b _ => ?_
    exact sum_join64 (fun L => ∑ f : Fin 12800, T (join32 q b) L f)
  have s3 : ∑ R : Fin 32, ∑ L : Fin 64, ∑ f : Fin 12800, T R L f
      = ∑ i : S3.Idx, (A0 (Shape.reshapeEquiv h i) + A1 (Shape.reshapeEquiv h i)) * mask (i 1).val :=
    (sum_idx3 (fun i : S3.Idx => (A0 (Shape.reshapeEquiv h i) + A1 (Shape.reshapeEquiv h i)) * mask (i 1).val)).symm
  have s4 : ∑ i : S3.Idx, (A0 (Shape.reshapeEquiv h i) + A1 (Shape.reshapeEquiv h i)) * mask (i 1).val
      = ∑ k : S7.Idx, (A0 k + A1 k) * mask (k 1).val := by
    rw [← Equiv.sum_comp (Shape.reshapeEquiv h) (fun k : S7.Idx => (A0 k + A1 k) * mask (k 1).val)]
    refine Finset.sum_congr rfl fun i _ => ?_
    rw [reshape_col h i]
  have s5 : ∑ k : S7.Idx, (A0 k + A1 k) * mask (k 1).val
      = ∑ k : S7.Idx, A0 k * mask (k 1).val + ∑ k : S7.Idx, A1 k * mask (k 1).val := by
    rw [← Finset.sum_add_distrib]
    exact Finset.sum_congr rfl fun k _ => add_mul_mask _ _ _
  rw [s1, s2, s3, s4, s5, sum_slice A0 idx0 hidx0, sum_slice A1 idx1 hidx1]

end Cert.Proof.SumBridge

end
-- ==== Proof.KernelValue.lean ====
/-
  The idealized kernel's result as a function of its arguments. The sum of the result array after the run is the sum
  of the sixteen grid points' block totals (each total sits at one entry of its row's block, the other entries are
  zero). A point's input blocks are blocks of the arguments viewed as [32, 64, 12800]: block (q, r) holds rows
  8 q … 8 q + 7 and columns 16 r … 16 r + 15. So the sixteen totals add up to the two sums over the slices [:, :63] of
  the arguments (the identity of SumBridge). The host operations after the region then form
  (0 + that sum) · 20 + ((0 + Σ arg2) + (0 + Σ arg3)) · 80640.
-/
import proofs.«128942_j65566970741223_2_alg».proof.Proof.FinalArray
import proofs.«128942_j65566970741223_2_alg».proof.Proof.SumBridge
import Idealize.ShloMosaic.Lib.StableHlo.Run
import Idealize.ShloMosaic.PureOps.Ideal.Laws

set_option maxRecDepth 16384

noncomputable section

namespace Cert.Proof.KernelIdeal

open Cert.KernelIdeal Cert.KernelIdeal.Gen Cert.Proof.BlockValue Cert.Proof.SumBridge
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-! ## The sum of the result array -/

/-- A value placed at one entry of a tile that is zero elsewhere sums to the value. -/
theorem sum_placed (v : EReal) : ∑ s : Fin 8, ∑ l : Fin 128, placed v s l = v := by
  have h1 : ∀ s : Fin 8, s ≠ 0 → ∑ l : Fin 128, placed v s l = 0 := fun s hs =>
    Finset.sum_eq_zero fun l _ => if_neg fun h => hs (Fin.ext h.1)
  have h2 : ∀ l : Fin 128, l ≠ 0 → placed v 0 l = 0 := fun l hl => if_neg fun h => hl (Fin.ext h.2)
  rw [Fintype.sum_eq_single 0 h1, Fintype.sum_eq_single 0 h2]
  exact if_pos ⟨rfl, rfl⟩

/-- The result array sums to the sixteen block totals. -/
theorem sum_finalG (c : Dev nD) :
    ∑ i : S4x8x128.Idx, finalG m c i = ∑ q : Fin 4, ∑ r : Fin 4, pointTotal m c (4 * q.val + r.val) := by
  rw [sum_idx3 (finalG m c)]
  refine Finset.sum_congr rfl fun q _ => ?_
  have e : ∀ (s : Fin 8) (l : Fin 128), finalG m c (ix3 q s l) = ∑ r : Fin 4, placed (pointTotal m c (4 * q.val + r.val)) s l := fun s l => by
    show (0 : EReal) + ∑ r ∈ Finset.range 4, placed (pointTotal m c (4 * q.val + r)) s l = _
    rw [zero_add, Finset.sum_range]
  rw [Finset.sum_congr rfl fun s _ => Finset.sum_congr rfl fun l _ => e s l]
  rw [Finset.sum_congr rfl fun s _ => Finset.sum_comm, Finset.sum_comm]
  exact Finset.sum_congr rfl fun r _ => sum_placed _

/-! ## The input blocks -/

/-- The arguments as functions on the indices of [32, 64, 10, 10, 2, 2, 32]. -/
abbrev argA0 (c : Dev nD) : S7.Idx → EReal := m ((c : Thread nD τ).loc main_arg0)
abbrev argA1 (c : Dev nD) : S7.Idx → EReal := m ((c : Thread nD τ).loc main_arg1)

/-- The region finds the first reshaped array at the first argument's elements in row-major order. -/
theorem V_main_v0 (c : Dev nD) : (V m c main_v0 : S32x64x12800.Idx → EReal)
    = shapeCast S32x64x12800 (m ((c : Thread nD τ).loc main_arg0)) shapeCasts_S32x64x10x10x2x2x32_S32x64x12800 := by
  show StableHlo.after hostOps0 (fun b => m (c, b)) (Proc.devRef .tc main_v0) = _
  after_results
  rfl
theorem V_main_v1 (c : Dev nD) : (V m c main_v1 : S32x64x12800.Idx → EReal)
    = shapeCast S32x64x12800 (m ((c : Thread nD τ).loc main_arg1)) shapeCasts_S32x64x10x10x2x2x32_S32x64x12800 := by
  show StableHlo.after hostOps0 (fun b => m (c, b)) (Proc.devRef .tc main_v1) = _
  after_results
  rfl

/-- The input windows' block index at point `t` is `(t / 4, t % 4, 0)`, and the point's second grid coordinate is
    `t % 4`: decided over the grid. -/
theorem idx01_facts : ∀ t : Fin cfg0.N, win0_0.index t (0 : Fin 3) = t.val / 4 ∧ win0_0.index t (1 : Fin 3) = t.val % 4
    ∧ win0_0.index t (2 : Fin 3) = 0 ∧ win0_1.index t (0 : Fin 3) = t.val / 4 ∧ win0_1.index t (1 : Fin 3) = t.val % 4
    ∧ win0_1.index t (2 : Fin 3) = 0 ∧ ((grid0.coords t) 1).val = t.val % 4 :=
  (by decide +kernel : ∀ t : Fin grid0.N, _)

/-- The first input's block at point `4 q + r`, at `(b, l, f)`: the first argument at row `8 q + b`, column `16 r + l`,
    lane `f` of its [32, 64, 12800] view. -/
theorem iblk0_apply (c : Dev nD) (q r : Fin 4) (ht : 4 * q.val + r.val < cfg0.N) (b : Fin 8) (l : Fin 16) (f : Fin 12800) :
    (iblk m c 0 ⟨4 * q.val + r.val, ht⟩ (ix3 b l f) : EReal)
      = argA0 m c (Shape.reshapeEquiv shapeCasts_S32x64x10x10x2x2x32_S32x64x12800 (ix3 (join32 q b) (join64 r l) f)) := by
  obtain ⟨e0, e1, e2, -, -, -, -⟩ := idx01_facts ⟨4 * q.val + r.val, ht⟩
  have hq : (4 * q.val + r.val) / 4 = q.val := by have := r.isLt; omega
  have hr : (4 * q.val + r.val) % 4 = r.val := by have := r.isLt; omega
  show V m c main_v0 (((cfg0.win 0).blk ⟨4 * q.val + r.val, ht⟩).view.emb (ix3 b l f)) = _
  rw [V_main_v0]
  show (m ((c : Thread nD τ).loc main_arg0)) (Shape.reshapeEquiv _ (((cfg0.win 0).blk ⟨4 * q.val + r.val, ht⟩).view.emb (ix3 b l f))) = _
  refine congrArg _ (congrArg _ ?_)
  funext a; apply Fin.ext
  match a with
  | ⟨0, _⟩ => show win0_0.index ⟨4 * q.val + r.val, ht⟩ (0 : Fin 3) * 8 + 1 * b.val = 8 * q.val + b.val
              rw [e0]; show (4 * q.val + r.val) / 4 * 8 + 1 * b.val = _; rw [hq]; omega
  | ⟨1, _⟩ => show win0_0.index ⟨4 * q.val + r.val, ht⟩ (1 : Fin 3) * 16 + 1 * l.val = 16 * r.val + l.val
              rw [e1]; show (4 * q.val + r.val) % 4 * 16 + 1 * l.val = _; rw [hr]; omega
  | ⟨2, _⟩ => show win0_0.index ⟨4 * q.val + r.val, ht⟩ (2 : Fin 3) * 12800 + 1 * f.val = f.val
              rw [e2]; omega

theorem iblk1_apply (c : Dev nD) (q r : Fin 4) (ht : 4 * q.val + r.val < cfg0.N) (b : Fin 8) (l : Fin 16) (f : Fin 12800) :
    (iblk m c 1 ⟨4 * q.val + r.val, ht⟩ (ix3 b l f) : EReal)
      = argA1 m c (Shape.reshapeEquiv shapeCasts_S32x64x10x10x2x2x32_S32x64x12800 (ix3 (join32 q b) (join64 r l) f)) := by
  obtain ⟨-, -, -, e0, e1, e2, -⟩ := idx01_facts ⟨4 * q.val + r.val, ht⟩
  have hq : (4 * q.val + r.val) / 4 = q.val := by have := r.isLt; omega
  have hr : (4 * q.val + r.val) % 4 = r.val := by have := r.isLt; omega
  show V m c main_v1 (((cfg0.win 1).blk ⟨4 * q.val + r.val, ht⟩).view.emb (ix3 b l f)) = _
  rw [V_main_v1]
  show (m ((c : Thread nD τ).loc main_arg1)) (Shape.reshapeEquiv _ (((cfg0.win 1).blk ⟨4 * q.val + r.val, ht⟩).view.emb (ix3 b l f))) = _
  refine congrArg _ (congrArg _ ?_)
  funext a; apply Fin.ext
  match a with
  | ⟨0, _⟩ => show win0_1.index ⟨4 * q.val + r.val, ht⟩ (0 : Fin 3) * 8 + 1 * b.val = 8 * q.val + b.val
              rw [e0]; show (4 * q.val + r.val) / 4 * 8 + 1 * b.val = _; rw [hq]; omega
  | ⟨1, _⟩ => show win0_1.index ⟨4 * q.val + r.val, ht⟩ (1 : Fin 3) * 16 + 1 * l.val = 16 * r.val + l.val
              rw [e1]; show (4 * q.val + r.val) % 4 * 16 + 1 * l.val = _; rw [hr]; omega
  | ⟨2, _⟩ => show win0_1.index ⟨4 * q.val + r.val, ht⟩ (2 : Fin 3) * 12800 + 1 * f.val = f.val
              rw [e2]; omega

/-- The block total of point `4 q + r`, over the arguments. -/
theorem pointTotal_eq (c : Dev nD) (q r : Fin 4) :
    pointTotal m c (4 * q.val + r.val) = ∑ b : Fin 8, ∑ l : Fin 16, ∑ f : Fin 12800,
      (argA0 m c (Shape.reshapeEquiv shapeCasts_S32x64x10x10x2x2x32_S32x64x12800 (ix3 (join32 q b) (join64 r l) f))
        + argA1 m c (Shape.reshapeEquiv shapeCasts_S32x64x10x10x2x2x32_S32x64x12800 (ix3 (join32 q b) (join64 r l) f)))
        * mask (16 * r.val + l.val) := by
  have hN : cfg0.N = 16 := N_0
  have ht : 4 * q.val + r.val < cfg0.N := by have := q.isLt; have := r.isLt; omega
  obtain ⟨-, -, -, -, -, -, ec⟩ := idx01_facts ⟨4 * q.val + r.val, ht⟩
  have hr : (4 * q.val + r.val) % 4 = r.val := by have := r.isLt; omega
  unfold pointTotal
  rw [dif_pos ht]
  unfold blockTotal
  refine Finset.sum_congr rfl fun b _ => Finset.sum_congr rfl fun l _ => Finset.sum_congr rfl fun f _ => ?_
  rw [iblk0_apply m c q r ht b l f, iblk1_apply m c q r ht b l f, ec]
  show _ * rowMask (16 * ((4 * q.val + r.val) % 4) + l.val) = _
  rw [hr]
  rfl

/-- THE KERNEL'S TOTAL: the result array sums to the two sums over the slices that drop the last column. -/
theorem kernel_total (c : Dev nD) (idx0 idx1 : S7c.Idx → S7.Idx)
    (hidx0 : ∀ (j : S7c.Idx) (a : Fin 7), (idx0 j a).val = (j a).val)
    (hidx1 : ∀ (j : S7c.Idx) (a : Fin 7), (idx1 j a).val = (j a).val) :
    ∑ i : S4x8x128.Idx, finalG m c i = ∑ j : S7c.Idx, argA0 m c (idx0 j) + ∑ j : S7c.Idx, argA1 m c (idx1 j) := by
  rw [sum_finalG, Finset.sum_congr rfl fun q _ => Finset.sum_congr rfl fun r _ => pointTotal_eq m c q r]
  exact bridge (argA0 m c) (argA1 m c) shapeCasts_S32x64x10x10x2x2x32_S32x64x12800 idx0 idx1 hidx0 hidx1

/-! ## The host operations after the region -/

/-- The host's sum over all axes, at the extended reals: the initial value plus the sum of all entries. -/
theorem hostSum_apply {s : Shape} {axes : List (Fin s.rank)} (h' : s.ReducesTo axes S_) (hS : 0 < S_.numel)
    (x : s.Idx → EReal) (init : S_.Idx → EReal) (i : S_.Idx) :
    Host.reduceAdd (F := Ideal) (φ := .f32) x init h' hS i = init (Shape.Idx.first hS) + ∑ j : s.Idx, x j := by
  simp only [Host.reduceAdd, Ideal.hostReduceAdd_def]
  exact Ideal.hostReduceAdd_total h' (fun b => b.elim0) x _ i

/-- What the host operations after the region leave in the result buffer: over the result array's contents `finalG` and
    the last two arguments. -/
theorem tail_eq (c : Dev nD) : Pipeline.afterTail₀ cfgs (dats m) 0 (V0 m) [hostOps1] c main_v9
    = addf (mulf (Host.reduceAdd (F := Ideal) (finalG m c) (constant (F := Ideal) S_ .f32 0x00000000#32) reducesTo_S4x8x128_S_d0_1_2 h_S_)
          (constant (F := Ideal) S_ .f32 0x41A00000#32))
        (mulf (addf (Host.reduceAdd (F := Ideal) (m ((c : Thread nD τ).loc main_arg2)) (constant (F := Ideal) S_ .f32 0x00000000#32) reducesTo_S10x10x2x32_S_d0_1_2_3 h_S_)
            (Host.reduceAdd (F := Ideal) (m ((c : Thread nD τ).loc main_arg3)) (constant (F := Ideal) S_ .f32 0x00000000#32) reducesTo_S10x10x2x32_S_d0_1_2_3 h_S_))
          (constant (F := Ideal) S_ .f32 0x479D8000#32)) := by
  have hOut : Pipeline.withArrays (cfgs 0).spec c (V0 m c) (fun w => (dats m 0 c).arrAt w (cfgs 0).N) (Proc.devRef .tc main_v2)
      = finalG m c := (Pipeline.withArrays_arr spec0 launch0.win.arr_inj c _ _ 2).trans (final_out m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  show StableHlo.after hostOps1 _ (Proc.devRef .tc main_v9) = _
  after_results
  rw [hOut, h2, h3]

/-! ## The run, read -/

/-- The idealized kernel's run with its result named: the result buffer ends at what the host operations after the
    region compute from the result array, and the four arguments end as they were. -/
theorem kernel_run : θ_run defs (onTc (τ := τ) (main (F := Ideal))) ⟨m, fun _ => 0, ρ⟩ (fun r => ∀ c : Dev nD,
      r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v9 (Pipeline.mem_restRefs_of main_v9 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.Proof.KernelIdeal

end
-- ==== Proof.RefSide.lean ====
/-
  The reference program's side: its run read back one operation at a time.
-/
import proofs.«128942_j65566970741223_2_alg».proof.Proof.Gen.ReferenceIdeal.Run
import proofs.«128942_j65566970741223_2_alg».proof.Proof.Gen.ReferenceIdeal.Read
-- ==== Proof.lean ====
/-
  The certificate of a grid reduction against its plain reference.

  THE PROGRAMS. The kernel views two arrays A0, A1 of shape [32, 64, 10, 10, 2, 2, 32] as [32, 64, 12800] and walks a
  4 x 4 grid of blocks [8, 16, 12800]. At grid point (q, r) it forms the block total of (A0 + A1) · mask, the mask being
  1 on the columns 16 r + l below 63 and 0 on the last column; it places the total at entry [0, 0, 0] of a [1, 8, 128]
  block that is zero elsewhere, stores that block into block q of a [4, 8, 128] result at r = 0 and adds it there at
  r = 1, 2, 3. The host then sums the result and returns  (0 + Σ result) · 20 + ((0 + Σ A2) + (0 + Σ A3)) · 80640  for two
  small arrays A2, A3. The reference returns  ((0 + Σ A0[:, :63]) + (0 + Σ A1[:, :63])) · 20 + ((0 + Σ A2) + (0 + Σ A3)) · 80640.

  WHY THEY AGREE at the extended reals. Every float operation is the exact one, so: the three lane sums of a block are
  the triple sum over the block; one entry of each result block holds the four totals of its row of the grid added up,
  the others hold 0 + 0 + 0 + 0, so the result sums to the sixteen totals; block (q, r) holds rows 8 q … 8 q + 7 and
  columns 16 r … 16 r + 15, so the sixteen totals are the sum over the whole [32, 64, 12800] view of (A0 + A1) · mask;
  the view has the same elements in row-major order and keeps an element's column; (a + b) · mask = a · mask + b · mask
  for a mask that is 0 or 1; and a sum of x · mask over all columns is the sum of x over the first 63. Only
  commutativity and associativity of the sum and the laws x · 1 = x, x · 0 = 0 are used, which hold on all extended
  reals: the precondition (finite inputs) is not needed for the values.

  THE FRAMES. Each kernel program terminates, faults nowhere and leaves its arguments unchanged: its body is run at a
  symbolic grid point in each of its two kinds (r = 0, where the result block is overwritten; r ≠ 0, where it is
  read and added to), the result's staging buffer after each point is given by recursion on the point, and the
  pipeline's launch theorem takes the per-point obligation. The reference's frame is its run with the result dropped.
  The idealized kernel is the kernel's own text read at the exact instance: the ideal pass rewrote nothing, and
  "preserves" has no conjunct.
-/
import proofs.«128942_j65566970741223_2_alg».proof.Defs
import proofs.«128942_j65566970741223_2_alg».proof.Proof.Gen.Kernel
import proofs.«128942_j65566970741223_2_alg».proof.Proof.Gen.KernelIdeal
import proofs.«128942_j65566970741223_2_alg».proof.Proof.Gen.ReferenceIdeal
import proofs.«128942_j65566970741223_2_alg».proof.Proof.Gen.Pre_finite_inputs
import proofs.«128942_j65566970741223_2_alg».proof.Proof.GridRunBits
import proofs.«128942_j65566970741223_2_alg».proof.Proof.KernelValue
import proofs.«128942_j65566970741223_2_alg».proof.Proof.RefSide

set_option maxRecDepth 16384

noncomputable section

namespace Cert.Proof

open Idealize.ShloMosaic Idealize.ShloMosaic.TcCoe Idealize.ShloMosaic.ValueIdx Idealize.SL.Sem
open Cert.Proof.KernelIdeal Cert.Proof.SumBridge

/-! ## The reference's slices keep each coordinate -/

theorem idx0_val (j : S7c.Idx) (a : Fin 7) : ((Cert.ReferenceIdeal.Read.idx_main_v0 j : S7.Idx) a).val = (j a).val := by
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

theorem idx2_val (j : S7c.Idx) (a : Fin 7) : ((Cert.ReferenceIdeal.Read.idx_main_v2 j : S7.Idx) a).val = (j a).val := by
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-! ## The two results are one extended real -/

/-- The reference's result, as a function of the kernel's argument arrays, is what the kernel's host operations leave
    after the region: both are  S · 20 + ((0 + Σ A2) + (0 + Σ A3)) · 80640  with S the sum of the two slices on one side
    and zero plus the sum of the result array on the other, and the result array sums to the two slice sums. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v10 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Pipeline.afterTail₀ Cert.KernelIdeal.cfgs (dats m) 0 (Cert.KernelIdeal.Gen.V0 m) [Cert.KernelIdeal.Gen.hostOps1] c Cert.KernelIdeal.main_v9 := by
  rw [tail_eq]
  funext i
  rw [Cert.ReferenceIdeal.Read.val_main_v10_apply, Cert.ReferenceIdeal.Read.val_main_v8_apply, Cert.ReferenceIdeal.Read.val_main_v9_apply,
    Cert.ReferenceIdeal.Read.val_main_v4_apply, Cert.ReferenceIdeal.Read.val_main_v7_apply,
    Cert.ReferenceIdeal.Read.val_main_v1_apply, Cert.ReferenceIdeal.Read.val_main_v3_apply,
    Cert.ReferenceIdeal.Read.val_main_v5_apply, Cert.ReferenceIdeal.Read.val_main_v6_apply]
  show _ = FloatOps.addf
      (FloatOps.mulf (Host.reduceAdd (F := Ideal) (φ := .f32) (finalG m c) _ _ _ i) (FloatOps.ofBits .f32 0x41A00000#32))
      (FloatOps.mulf (FloatOps.addf (Host.reduceAdd (F := Ideal) (φ := .f32) _ _ _ _ i) (Host.reduceAdd (F := Ideal) (φ := .f32) _ _ _ _ i))
        (FloatOps.ofBits .f32 0x479D8000#32))
  rw [hostSum_apply, hostSum_apply, hostSum_apply,
    kernel_total m c Cert.ReferenceIdeal.Read.idx_main_v0 Cert.ReferenceIdeal.Read.idx_main_v2 idx0_val idx2_val]
  simp only [Cert.ReferenceIdeal.Read.val_main_v0_apply, Cert.ReferenceIdeal.Read.val_main_v2_apply,
    Cert.ReferenceIdeal.Read.val_main_cst_apply, Cert.ReferenceIdeal.Read.val_main_cst_0_apply,
    Cert.ReferenceIdeal.Read.val_main_cst_1_apply, Cert.ReferenceIdeal.Read.val_main_cst_2_apply,
    Cert.ReferenceIdeal.Read.val_main_cst_3_apply, Cert.ReferenceIdeal.Read.val_main_cst_4_apply,
    constant_apply, Ideal.ofBits_def, Ideal.addf_def, Ideal.mulf_def, Ideal.ofBits_zero_f32, zero_add]
  rfl

/-! ## The claims -/

theorem frame_k : Cert.frame_Kernel := fun m ρ _ => Cert.Proof.Kernel.frame (F := Bits) m ρ
theorem frame_ki : Cert.frame_KernelIdeal := fun m ρ _ => Cert.Proof.KernelIdeal.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to state. -/
theorem preserves : Cert.preserves_Kernel_KernelIdeal := trivial

/-- At the extended reals the kernel's result buffer ends at what its host operations compute from the result array
    (the kernel's run, read) and the reference's at its operations' term of arguments that agree: one extended real
    (`result_eq`). -/
theorem algebraic : Cert.algebraic_KernelIdeal_ReferenceIdeal := by
  intro m ρ m' ρ' _ hagree
  refine ⟨fun c => Pipeline.afterTail₀ Cert.KernelIdeal.cfgs (dats m) 0 (Cert.KernelIdeal.Gen.V0 m) [Cert.KernelIdeal.Gen.hostOps1] c Cert.KernelIdeal.main_v9,
    kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v10_eq]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
